-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x512 : Shape := ⟨3, ![32, 8192, 512]⟩
abbrev S16x512 : Shape := ⟨2, ![16, 512]⟩
abbrev S_ : Shape := ⟨0, ![]⟩

class Facts : Prop where
  bcast_S_S32x8192x512 : S_.BroadcastsInDim S32x8192x512 (![] : Fin 0 → Fin S32x8192x512.rank)
  reducesTo_S32x8192x512_S_d0_1_2 : S32x8192x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S32x8192x512 .f32) (main_arg1 : FVec F S16x512 .f32) : IVec S_ 1 :=
  let main_v0 : FVec F S32x8192x512 .f32 := Host.absf main_arg0
  let main_cst : FVec F S_ .f32 := constant S_ .f32 0x7F800000#32
  let main_v1 : FVec F S32x8192x512 .f32 := broadcastInDim S32x8192x512 ![] bcast_S_S32x8192x512 main_cst
  let main_v2 : IVec S32x8192x512 1 := cmpf .olt main_v0 main_v1
  let main_c : IVec S_ 1 := constantI S_ 1 1#1
  let main_v3 : IVec S_ 1 := (fun x v => Host.reduce IntOp.andi x v reducesTo_S32x8192x512_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Kernel.lean ====
abbrev S32x8192x512 : Shape := ⟨3, ![32, 8192, 512]⟩
abbrev S16x512 : Shape := ⟨2, ![16, 512]⟩
abbrev S32x16x512 : Shape := ⟨3, ![32, 16, 512]⟩
abbrev S1x2048x512 : Shape := ⟨3, ![1, 2048, 512]⟩
abbrev S1x16x512 : Shape := ⟨3, ![1, 16, 512]⟩
abbrev S16x128 : Shape := ⟨2, ![16, 128]⟩
abbrev S2048x512 : Shape := ⟨2, ![2048, 512]⟩
abbrev S16x2048 : Shape := ⟨2, ![16, 2048]⟩
abbrev S16 : Shape := ⟨1, ![16]⟩
abbrev S16x1 : Shape := ⟨2, ![16, 1]⟩

abbrev nBuf : Space → Nat
  | .hbm => 3
  | .vmem => 8
  | .smem => 0
  | _ => 0

abbrev bufTy : (tb : Table) → Fin (tcTables nBuf tb) → BufTy
  | .hbm, ⟨0, _⟩ => ⟨S32x8192x512, .f32⟩
  | .hbm, ⟨1, _⟩ => ⟨S16x512, .f32⟩
  | .hbm, ⟨2, _⟩ => ⟨S32x16x512, .f32⟩
  | .local _ .vmem, ⟨0, _⟩ => ⟨S1x2048x512, .f32⟩
  | .local _ .vmem, ⟨1, _⟩ => ⟨S1x2048x512, .f32⟩
  | .local _ .vmem, ⟨2, _⟩ => ⟨S16x512, .f32⟩
  | .local _ .vmem, ⟨3, _⟩ => ⟨S1x16x512, .f32⟩
  | .local _ .vmem, ⟨4, _⟩ => ⟨S1x16x512, .f32⟩
  | .local _ .vmem, ⟨5, _⟩ => ⟨S16x512, .f32⟩
  | .local _ .vmem, ⟨6, _⟩ => ⟨S16x128, .f32⟩
  | .local _ .vmem, ⟨7, _⟩ => ⟨S16x128, .f32⟩
  | _, _ => ⟨S32x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_20 : BitVec 32 := 0#32
  let v42 : BitVec 1 := Scalar.cmpi .ne v41 c0_i32_20
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S16x2048_S16 : S16x2048.Reduces [1] S16
  shapeCasts_S16_S16x1 : S16.ShapeCasts S16x1
  inb_S16x128_S16x1_0_0 : ∀ a, (![0, 0] : Fin 2 → Nat) a + S16x1.size a ≤ S16x128.size a
  h_S16x1 : 0 < S16x1.numel
  broadcasts_S16x1_S16x2048 : S16x1.Broadcasts S16x2048
  broadcasts_S16x1_S16x128 : S16x1.Broadcasts S16x128
  shapeCasts_S16x1_S16x1 : S16x1.ShapeCasts S16x1
  broadcasts_S16x1_S16x512 : S16x1.Broadcasts S16x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  dot_S16x512_S2048x512_S16x2048_1_1_0_0_n_n_wf : DotDims.WF S16x512 S2048x512 S16x2048 [1] [1] [0] [0] [] []
  dot_S16x2048_S2048x512_S16x512_1_0_0_1_n_n_wf : DotDims.WF S16x2048 S2048x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x8192x512.size a
  hwx0_0 : ∀ i : grid0.Coords, EltTy.bits .f32 = 32 ∨ (Rect.block (s := S32x8192x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S32x16x512.size a
  hwx0_2 : ∀ i : grid0.Coords, EltTy.bits .f32 = 32 ∨ (Rect.block (s := S32x16x512) S1x16x512.size (cc0_transform_2 i) (hinb0_2 i)).WholeWords (EltTy.packing .f32)

variable [Facts₀]

def dot_S16x512_S2048x512_S16x2048_1_1_0_0_n_n : DotDims S16x512 S2048x512 S16x2048 where
  lhsContracting := [1]
  rhsContracting := [1]
  lhsNonContracting := [0]
  rhsNonContracting := [0]
  lhsBatch := []
  rhsBatch := []
  wf := dot_S16x512_S2048x512_S16x2048_1_1_0_0_n_n_wf
def dot_S16x2048_S2048x512_S16x512_1_0_0_1_n_n : DotDims S16x2048 S2048x512 S16x512 where
  lhsContracting := [1]
  rhsContracting := [0]
  lhsNonContracting := [0]
  rhsNonContracting := [1]
  lhsBatch := []
  rhsBatch := []
  wf := dot_S16x2048_S2048x512_S16x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x8192x512 : Shape := ⟨3, ![32, 8192, 512]⟩
abbrev S16x512 : Shape := ⟨2, ![16, 512]⟩
abbrev S32x8192x16 : Shape := ⟨3, ![32, 8192, 16]⟩
abbrev S32x16x8192 : Shape := ⟨3, ![32, 16, 8192]⟩
abbrev S_ : Shape := ⟨0, ![]⟩
abbrev S32x16 : Shape := ⟨2, ![32, 16]⟩
abbrev S32x16x1 : Shape := ⟨3, ![32, 16, 1]⟩
abbrev S32x16x512 : Shape := ⟨3, ![32, 16, 512]⟩

abbrev nBuf : Space → Nat
  | .hbm => 19
  | .vmem => 0
  | .smem => 0
  | _ => 0

abbrev bufTy : (tb : Table) → Fin (tcTables nBuf tb) → BufTy
  | .hbm, ⟨0, _⟩ => ⟨S32x8192x512, .f32⟩
  | .hbm, ⟨1, _⟩ => ⟨S16x512, .f32⟩
  | .hbm, ⟨2, _⟩ => ⟨S32x8192x16, .f32⟩
  | .hbm, ⟨3, _⟩ => ⟨S32x16x8192, .f32⟩
  | .hbm, ⟨4, _⟩ => ⟨S_, .f32⟩
  | .hbm, ⟨5, _⟩ => ⟨S32x16, .f32⟩
  | .hbm, ⟨6, _⟩ => ⟨S_, .f32⟩
  | .hbm, ⟨7, _⟩ => ⟨S32x16, .f32⟩
  | .hbm, ⟨8, _⟩ => ⟨S32x16, .f32⟩
  | .hbm, ⟨9, _⟩ => ⟨S32x16x1, .f32⟩
  | .hbm, ⟨10, _⟩ => ⟨S32x16x8192, .f32⟩
  | .hbm, ⟨11, _⟩ => ⟨S32x16x8192, .f32⟩
  | .hbm, ⟨12, _⟩ => ⟨S32x16x8192, .f32⟩
  | .hbm, ⟨13, _⟩ => ⟨S_, .f32⟩
  | .hbm, ⟨14, _⟩ => ⟨S32x16, .f32⟩
  | .hbm, ⟨15, _⟩ => ⟨S32x16x1, .f32⟩
  | .hbm, ⟨16, _⟩ => ⟨S32x16x8192, .f32⟩
  | .hbm, ⟨17, _⟩ => ⟨S32x16x8192, .f32⟩
  | .hbm, ⟨18, _⟩ => ⟨S32x16x512, .f32⟩
  | _, _ => ⟨S32x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S32x8192x16_S32x16x8192_0_2_1 : S32x8192x16.Transposes [0, 2, 1] S32x16x8192
  reducesTo_S32x16x8192_S32x16_d2 : S32x16x8192.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x8192_0_1_2 : S32x16x1.BroadcastsInDim S32x16x8192 (![0, 1, 2] : Fin 3 → Fin S32x16x8192.rank)
  dot_S32x8192x512_S16x512_S32x8192x16_2_1_01_0_n_n_wf : DotDims.WF S32x8192x512 S16x512 S32x8192x16 [2] [1] [0, 1] [0] [] []
  dot_S32x16x8192_S32x8192x512_S32x16x512_2_1_1_2_0_0_wf : DotDims.WF S32x16x8192 S32x8192x512 S32x16x512 [2] [1] [1] [2] [0] [0]

variable [Facts₀]

def dot_S32x8192x512_S16x512_S32x8192x16_2_1_01_0_n_n : DotDims S32x8192x512 S16x512 S32x8192x16 where
  lhsContracting := [2]
  rhsContracting := [1]
  lhsNonContracting := [0, 1]
  rhsNonContracting := [0]
  lhsBatch := []
  rhsBatch := []
  wf := dot_S32x8192x512_S16x512_S32x8192x16_2_1_01_0_n_n_wf
def dot_S32x16x8192_S32x8192x512_S32x16x512_2_1_1_2_0_0 : DotDims S32x16x8192 S32x8192x512 S32x16x512 where
  lhsContracting := [2]
  rhsContracting := [1]
  lhsNonContracting := [1]
  rhsNonContracting := [2]
  lhsBatch := [0]
  rhsBatch := [0]
  wf := dot_S32x16x8192_S32x8192x512_S32x16x512_2_1_1_2_0_0_wf

class Facts : Prop extends Facts₀ where

variable [Facts]
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Finite.lean ====
/-
  The precondition, read: when the test "every entry of both inputs has absolute value below +∞" comes out true at
  the ideal instance, every entry of both inputs is a real number.
-/
import proofs.«152830_g27711128994522_feedfinal_1_5_alg».proof.Pre_finite_inputs
import proofs.«152830_g27711128994522_feedfinal_1_5_alg».proof.Proof.Gen.Pre_finite_inputs
import proofs.«152830_g27711128994522_feedfinal_1_5_alg».proof.Proof.LibEReal
import Idealize.ShloMosaic.Lib.ReduceAll
import Idealize.ShloMosaic.Lib.Affine
import Idealize.ShloMosaic.Lib.ValueIdx

noncomputable section

namespace Cert.Pool

open Idealize.ShloMosaic Cert.Pre_finite_inputs

instance : Subsingleton Cert.Pre_finite_inputs.S_.Idx := ⟨fun a b => funext fun d => d.elim0⟩

/-- Both inputs pass the finiteness test only if all their entries are real numbers. -/
theorem real_of_pre (a0 : FVec Ideal S32x8192x512 .f32) (a1 : FVec Ideal S16x512 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨e0, e1⟩ := IntOp.andi_eq_one.mp h0
  refine ⟨fun i => ?_, fun i => ?_⟩
  · have hi := Host.reduce_andi_all _ _ _ _ _ e0 i
    exact Cert.LibEReal.real_of_abs_lt_top _ (Cert.LibEReal.lt_top_of_cmp _ hi)
  · have hi := Host.reduce_andi_all _ _ _ _ _ e1 i
    exact Cert.LibEReal.real_of_abs_lt_top _ (Cert.LibEReal.lt_top_of_cmp _ hi)

end Cert.Pool

end
-- ==== Proof.Cases.lean ====
/-
  What one grid point of the pooling kernel leaves behind, as pure functions of what it found.

  The kernel carries three scratch arrays across the four sequence chunks of a batch: the weighted sums `acc`
  (16×512), the running shift `m` (16×128, every column the same) and the total weights `l` (16×128, every column
  the same).  At a chunk it reads column 0 of `m`, forms a new shift, rescales `acc` and `l` by the exponential of
  the old shift minus the new one, and adds the chunk's contribution.  At the first chunk of a batch the three arrays
  are first reset (shift: a large negative constant; sums: zero); at the last chunk the quotient `acc / l` is stored
  to the output block.

  This module names those four functions (`stepAcc`, `stepM`, `stepL`, `outQ`) over the generated payloads, and
  reads the pieces each control case of the generated frame run found back as these functions, for any float
  instance.
-/
import proofs.«152830_g27711128994522_feedfinal_1_5_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Column 0 of a 16×128 array, as a 16×1 array. -/
def col0 (v : Vec F S16x128 .f32) : Vec F S16x1 .f32 :=
  View.ld v (Rect.unit (s := S16x128) ![0, 0] S16x1.size inb_S16x128_S16x1_0_0)

/-- The weighted sums after a chunk: the old ones rescaled, plus the chunk's. -/
def stepAcc (x0 : Vec F S1x2048x512 .f32) (x1 : Vec F S16x512 .f32) (acc : Vec F S16x512 .f32) (mm : Vec F S16x128 .f32) :
    Vec F S16x512 .f32 := k0_pay12 x0 x1 (col0 mm) acc
/-- The shift after a chunk, in every column. -/
def stepM (x0 : Vec F S1x2048x512 .f32) (x1 : Vec F S16x512 .f32) (mm : Vec F S16x128 .f32) : Vec F S16x128 .f32 :=
  k0_pay1 (k0_pay8 x0 x1 (col0 mm))
/-- The total weights after a chunk: the old ones rescaled, plus the chunk's. -/
def stepL (x0 : Vec F S1x2048x512 .f32) (x1 : Vec F S16x512 .f32) (mm ll : Vec F S16x128 .f32) : Vec F S16x128 .f32 :=
  k0_pay11 x0 x1 (col0 mm) ll
/-- The output block at the last chunk: the new weighted sums over column 0 of the new total weights. -/
def outQ (x0 : Vec F S1x2048x512 .f32) (x1 : Vec F S16x512 .f32) (acc : Vec F S16x512 .f32) (mm ll : Vec F S16x128 .f32) :
    Vec F S1x16x512 .f32 := k0_pay2 (stepAcc x0 x1 acc mm) (col0 (stepL x0 x1 mm ll))

/-- A load, through any rectangle, of what one store of the whole array left reads the stored value there. -/
theorem readCov_whole_piece {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

section cases

variable (c : Dev nD) (i : grid0.Coords) (a2 : Memref sig .tc .vmem S1x2048x512 .f32) (h2 : a2.IsWhole)
  (a3 : Memref sig .tc .vmem S16x512 .f32) (h3 : a3.IsWhole) (a4 : Memref sig .tc .vmem S1x16x512 .f32) (h4 : a4.IsWhole)
  (a5 : Memref sig .tc .vmem S16x512 .f32) (h5 : a5.IsWhole) (a6 : Memref sig .tc .vmem S16x128 .f32) (h6 : a6.IsWhole)
  (a7 : Memref sig .tc .vmem S16x128 .f32) (h7 : a7.IsWhole)
  (x0 : Vec F S1x2048x512 .f32) (x1 : Vec F S16x512 .f32)

/-! ### A middle chunk -/

theorem accB (hc0 : ¬cond0_0 i) (hc1 : ¬cond0_1 i) (xs0 : Vec F S16x512 .f32) (xs1 xs2 : Vec F S16x128 .f32) :
    sout0_B_0 c i a2 h2 a3 h3 a4 h4 a5 h5 a6 h6 a7 h7 hc0 hc1 x0 x1 xs0 xs1 xs2 = stepAcc x0 x1 xs0 xs1 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3]
  rfl

theorem mB (hc0 : ¬cond0_0 i) (hc1 : ¬cond0_1 i) (xs0 : Vec F S16x512 .f32) (xs1 xs2 : Vec F S16x128 .f32) :
    sout0_B_1 c i a2 h2 a3 h3 a4 h4 a5 h5 a6 h6 a7 h7 hc0 hc1 x0 x1 xs0 xs1 xs2 = stepM x0 x1 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3]
  rfl

theorem lB (hc0 : ¬cond0_0 i) (hc1 : ¬cond0_1 i) (xs0 : Vec F S16x512 .f32) (xs1 xs2 : Vec F S16x128 .f32) :
    sout0_B_2 c i a2 h2 a3 h3 a4 h4 a5 h5 a6 h6 a7 h7 hc0 hc1 x0 x1 xs0 xs1 xs2 = stepL x0 x1 xs1 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3]
  rfl

/-! ### The last chunk of a batch -/

theorem accC (hc0 : ¬cond0_0 i) (hc1 : cond0_1 i) (xs0 : Vec F S16x512 .f32) (xs1 xs2 : Vec F S16x128 .f32) :
    sout0_C_0 c i a2 h2 a3 h3 a4 h4 a5 h5 a6 h6 a7 h7 hc0 hc1 x0 x1 xs0 xs1 xs2 = stepAcc x0 x1 xs0 xs1 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3]
  rfl

theorem mC (hc0 : ¬cond0_0 i) (hc1 : cond0_1 i) (xs0 : Vec F S16x512 .f32) (xs1 xs2 : Vec F S16x128 .f32) :
    sout0_C_1 c i a2 h2 a3 h3 a4 h4 a5 h5 a6 h6 a7 h7 hc0 hc1 x0 x1 xs0 xs1 xs2 = stepM x0 x1 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3]
  rfl

theorem lC (hc0 : ¬cond0_0 i) (hc1 : cond0_1 i) (xs0 : Vec F S16x512 .f32) (xs1 xs2 : Vec F S16x128 .f32) :
    sout0_C_2 c i a2 h2 a3 h3 a4 h4 a5 h5 a6 h6 a7 h7 hc0 hc1 x0 x1 xs0 xs1 xs2 = stepL x0 x1 xs1 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3]
  rfl

theorem outC (hc0 : ¬cond0_0 i) (hc1 : cond0_1 i) (xs0 : Vec F S16x512 .f32) (xs1 xs2 : Vec F S16x128 .f32) :
    out0_C_2 c i a2 h2 a3 h3 a4 h4 a5 h5 a6 h6 a7 h7 hc0 hc1 x0 x1 xs0 xs1 xs2 = outQ x0 x1 xs0 xs1 xs2 := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz3]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3,
    View.readCov_unit_zero (S := S16x512) _ hz2, readCov_whole_piece (S := S16x128) _ hz2]
  rfl

/-! ### The first chunk of a batch: the same functions of the reset values -/

theorem accA (hc0 : cond0_0 i) (hc1 : ¬cond0_1 i) :
    sout0_A_0 c i a2 h2 a3 h3 a4 h4 a5 h5 a6 h6 a7 h7 hc0 hc1 x0 x1 = stepAcc x0 x1 k0_pay5 k0_pay3 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S16x512) hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3,
    View.readCov_unit_zero (S := S16x512) _ hz2, View.readCov_unit_zero (S := S16x128) _ hz2,
    readCov_whole_piece (S := S16x128) _ hz2]
  rfl

theorem mA (hc0 : cond0_0 i) (hc1 : ¬cond0_1 i) :
    sout0_A_1 c i a2 h2 a3 h3 a4 h4 a5 h5 a6 h6 a7 h7 hc0 hc1 x0 x1 = stepM x0 x1 k0_pay3 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S16x128) hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3,
    View.readCov_unit_zero (S := S16x512) _ hz2, View.readCov_unit_zero (S := S16x128) _ hz2,
    readCov_whole_piece (S := S16x128) _ hz2]
  rfl

theorem lA (hc0 : cond0_0 i) (hc1 : ¬cond0_1 i) :
    sout0_A_2 c i a2 h2 a3 h3 a4 h4 a5 h5 a6 h6 a7 h7 hc0 hc1 x0 x1 = stepL x0 x1 k0_pay3 k0_pay4 := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S16x128) hz2]
  simp only [View.readAt_eq_ld, h2.read_unread, h3.read_unread, h5.read_unread, h6.read_unread, h7.read_unread,
    View.ld_unit_zero (S := S16x512) hz2, View.ld_unit_zero (S := S16x128) hz2, View.ld_unit_zero (S := S1x2048x512) hz3,
    View.readCov_unit_zero (S := S16x512) _ hz2, View.readCov_unit_zero (S := S16x128) _ hz2,
    readCov_whole_piece (S := S16x128) _ hz2]
  rfl

end cases

end Cert.KernelIdeal.Cases

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibRealValued.lean ====
/-
  Extended reals that are real numbers.

  The pooling kernel and its reference are compared at inputs that are real numbers; every intermediate value is then
  a real number too.  The facts below carry the embedding of the reals through the operations met on the way: finite
  sums, the maximum with a value below `⊤`, a fold of maxima, the exponential and the quotient.
-/
import Idealize.ShloMosaic.PureOps.Ideal
import Idealize.ShloMosaic.PureOps.Ideal.Laws
import Mathlib.Data.Finset.Fold

noncomputable section

open scoped BigOperators

namespace Cert.Pool

open Idealize.ShloMosaic

/-- The embedding of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum of a real number and an extended real below `⊤` is a real number. -/
theorem max_real (μ : ℝ) (y : EReal) (hy : y < ⊤) : ∃ μ' : ℝ, max (μ : EReal) y = (μ' : EReal) := by
  induction y using EReal.rec with
  | bot => exact ⟨μ, max_eq_left bot_le⟩
  | top => exact absurd hy (lt_irrefl _)
  | coe v => exact ⟨max μ v, (EReal.coe_strictMono.monotone.map_max (a := μ) (b := v)).symm⟩

/-- A fold of maxima over real numbers, started below `⊤`, stays below `⊤`. -/
theorem fold_max_lt_top {ι : Type*} (s : Finset ι) (b : EReal) (hb : b < ⊤) (f : ι → ℝ) :
    s.fold max b (fun k => (f k : EReal)) < ⊤ :=
  (Finset.fold_max_lt _).mpr ⟨hb, fun k _ => EReal.coe_lt_top (f k)⟩

/-- A fold of maxima over a nonempty family of real numbers, started at `⊥`, is a real number. -/
theorem fold_max_real {ι : Type*} (s : Finset ι) (hs : s.Nonempty) (f : ι → ℝ) :
    ∃ M : ℝ, s.fold max (⊥ : EReal) (fun k => (f k : EReal)) = (M : EReal) := by
  obtain ⟨k₀, hk₀⟩ := hs
  have hlt := fold_max_lt_top s ⊥ bot_lt_top f
  have hge : (f k₀ : EReal) ≤ s.fold max (⊥ : EReal) (fun k => (f k : EReal)) :=
    (Finset.le_fold_max _).mpr (Or.inr ⟨k₀, hk₀, le_rfl⟩)
  generalize s.fold max (⊥ : EReal) (fun k => (f k : EReal)) = y at hlt hge
  induction y using EReal.rec with
  | bot => exact absurd hge (not_le.mpr (EReal.bot_lt_coe _))
  | top => exact absurd hlt (lt_irrefl _)
  | coe v => exact ⟨v, rfl⟩

/-- The exponential of a real number. -/
theorem exp_coe (r : ℝ) : Ideal.exp (r : EReal) = (Real.exp r : EReal) := rfl

/-- The quotient of two real numbers with a nonzero divisor. -/
theorem div_coe_coe (a b : ℝ) (hb : b ≠ 0) : Ideal.div (a : EReal) (b : EReal) = ((a / b : ℝ) : EReal) := by
  rw [Ideal.div_coe hb, ← EReal.coe_mul]
  exact congrArg _ (by rw [mul_one_div])

/-- The large negative word the running shift is reset to denotes a real number. -/
theorem neg_big_real : ∃ c0 : ℝ, Ideal.ofBits .f32 0xF149F2CA#32 = (c0 : EReal) := by
  refine ⟨-(13234890 * 2 ^ 76), ?_⟩
  simp [Ideal.ofBits, Ideal.ieee]

/-- The word of negative infinity. -/
theorem neg_inf_pattern : Ideal.ofBits .f32 0xFF800000#32 = ⊥ := by simp [Ideal.ofBits, Ideal.ieee]

end Cert.Pool

end
-- ==== Proof.Step.lean ====
/-
  One chunk of the pooling kernel over the extended reals, at real inputs.

  Reading the payloads at an index: the scores of a chunk are the dot products of the seed rows with the chunk's
  rows; the new shift is the maximum of the old shift and the chunk's largest score; the rescaling factor is the
  exponential of the old shift minus the new; the chunk's weights are the exponentials of the scores minus the new
  shift; the total weights and the weighted sums are rescaled and extended by the chunk's weights.

  When the chunk's rows, the seeds, the old shift, the old total weights and the old weighted sums are real numbers,
  so are the new ones, and they are given by the same formulas over the reals (`step_real`).
-/
import proofs.«152830_g27711128994522_feedfinal_1_5_alg».proof.Proof.Cases
import proofs.«152830_g27711128994522_feedfinal_1_5_alg».proof.Proof.LibRowsDot
import proofs.«152830_g27711128994522_feedfinal_1_5_alg».proof.Proof.LibMatDot
import proofs.«152830_g27711128994522_feedfinal_1_5_alg».proof.Proof.LibRows
import proofs.«152830_g27711128994522_feedfinal_1_5_alg».proof.Proof.LibColumn
import proofs.«152830_g27711128994522_feedfinal_1_5_alg».proof.Proof.LibRealValued
import Idealize.ShloMosaic.Lib.ValueLayout
import Idealize.ShloMosaic.Lib.ValueIdx
import Idealize.ShloMosaic.PureOps.Ideal.Laws

noncomputable section

open scoped BigOperators

namespace Cert.KernelIdeal.Step

open Cert.KernelIdeal Cert.KernelIdeal.Gen Cert.KernelIdeal.Cases Idealize.ShloMosaic Idealize.ShloMosaic.ValueIdx Cert.Pool

/-! ## Where the two matrix products read their operands -/

theorem dA_l0 (j : S16x2048.Idx) (q : dot_S16x512_S2048x512_S16x2048_1_1_0_0_n_n.contr.Idx) :
    (dot_S16x512_S2048x512_S16x2048_1_1_0_0_n_n.lhsIdx j q 0).val = (j 0).val := by
  unfold DotDims.lhsIdx
  rw [dif_neg (show ¬(0 : Fin S16x512.rank) ∈ dot_S16x512_S2048x512_S16x2048_1_1_0_0_n_n.lhsBatch by decide),
    dif_pos (show (0 : Fin S16x512.rank) ∈ dot_S16x512_S2048x512_S16x2048_1_1_0_0_n_n.lhsNonContracting by decide)]
  rfl
theorem dA_l1 (j : S16x2048.Idx) (q : dot_S16x512_S2048x512_S16x2048_1_1_0_0_n_n.contr.Idx) :
    (dot_S16x512_S2048x512_S16x2048_1_1_0_0_n_n.lhsIdx j q 1).val = (q ⟨0, by decide⟩).val :=
  dot_S16x512_S2048x512_S16x2048_1_1_0_0_n_n.lhsIdx_val_of_single rfl j q
theorem dA_r0 (j : S16x2048.Idx) (q : dot_S16x512_S2048x512_S16x2048_1_1_0_0_n_n.contr.Idx) :
    (dot_S16x512_S2048x512_S16x2048_1_1_0_0_n_n.rhsIdx j q 0).val = (j 1).val := by
  unfold DotDims.rhsIdx
  rw [dif_neg (show ¬(0 : Fin S2048x512.rank) ∈ dot_S16x512_S2048x512_S16x2048_1_1_0_0_n_n.rhsBatch by decide),
    dif_pos (show (0 : Fin S2048x512.rank) ∈ dot_S16x512_S2048x512_S16x2048_1_1_0_0_n_n.rhsNonContracting by decide)]
  rfl
theorem dA_r1 (j : S16x2048.Idx) (q : dot_S16x512_S2048x512_S16x2048_1_1_0_0_n_n.contr.Idx) :
    (dot_S16x512_S2048x512_S16x2048_1_1_0_0_n_n.rhsIdx j q 1).val = (q ⟨0, by decide⟩).val :=
  dot_S16x512_S2048x512_S16x2048_1_1_0_0_n_n.rhsIdx_val_of_single rfl j q

theorem dB_l0 (j : S16x512.Idx) (q : dot_S16x2048_S2048x512_S16x512_1_0_0_1_n_n.contr.Idx) :
    (dot_S16x2048_S2048x512_S16x512_1_0_0_1_n_n.lhsIdx j q 0).val = (j 0).val := by
  unfold DotDims.lhsIdx
  rw [dif_neg (show ¬(0 : Fin S16x2048.rank) ∈ dot_S16x2048_S2048x512_S16x512_1_0_0_1_n_n.lhsBatch by decide),
    dif_pos (show (0 : Fin S16x2048.rank) ∈ dot_S16x2048_S2048x512_S16x512_1_0_0_1_n_n.lhsNonContracting by decide)]
  rfl
theorem dB_l1 (j : S16x512.Idx) (q : dot_S16x2048_S2048x512_S16x512_1_0_0_1_n_n.contr.Idx) :
    (dot_S16x2048_S2048x512_S16x512_1_0_0_1_n_n.lhsIdx j q 1).val = (q ⟨0, by decide⟩).val :=
  dot_S16x2048_S2048x512_S16x512_1_0_0_1_n_n.lhsIdx_val_of_single rfl j q
theorem dB_r0 (j : S16x512.Idx) (q : dot_S16x2048_S2048x512_S16x512_1_0_0_1_n_n.contr.Idx) :
    (dot_S16x2048_S2048x512_S16x512_1_0_0_1_n_n.rhsIdx j q 0).val = (q ⟨0, by decide⟩).val :=
  dot_S16x2048_S2048x512_S16x512_1_0_0_1_n_n.rhsIdx_val_of_single rfl j q
theorem dB_r1 (j : S16x512.Idx) (q : dot_S16x2048_S2048x512_S16x512_1_0_0_1_n_n.contr.Idx) :
    (dot_S16x2048_S2048x512_S16x512_1_0_0_1_n_n.rhsIdx j q 1).val = (j 1).val := by
  unfold DotDims.rhsIdx
  rw [dif_neg (show ¬(1 : Fin S2048x512.rank) ∈ dot_S16x2048_S2048x512_S16x512_1_0_0_1_n_n.rhsBatch by decide),
    dif_pos (show (1 : Fin S2048x512.rank) ∈ dot_S16x2048_S2048x512_S16x512_1_0_0_1_n_n.rhsNonContracting by decide)]
  rfl

/-! ## The payloads at an index -/

section apply

variable (x0 : Vec Ideal S1x2048x512 .f32) (x1 : Vec Ideal S16x512 .f32)

/-- Column 0 of a 16×128 array, read at a row. -/
theorem col0_apply (v : Vec Ideal S16x128 .f32) (r : Fin 16) (z : Fin 1) : col0 v (ix2 r z) = v (ix2 r (0 : Fin 128)) := by
  have hz : z.val = 0 := by omega
  show v _ = v _
  refine congrArg v (funext fun a => Fin.ext ?_)
  match a with
  | ⟨0, _⟩ => show 0 + 1 * r.val = r.val; omega
  | ⟨1, _⟩ => show 0 + 1 * z.val = 0; omega

/-- The chunk's rows as a matrix. -/
theorem pay6_apply (k : Fin 2048) (d : Fin 512) : k0_pay6 x0 (ix2 k d) = x0 (ix3 (0 : Fin 1) k d) :=
  shapeCast_1ab_ab_apply x0 shapeCasts_S1x2048x512_S2048x512 k d

/-- The chunk's scores: seed row `r` against chunk row `k`. -/
theorem pay7_apply (r : Fin 16) (k : Fin 2048) :
    k0_pay7 x0 x1 (ix2 r k) = ∑ d : Fin 512, x1 (ix2 r d) * x0 (ix3 (0 : Fin 1) k d) := by
  refine (Cert.Lora.rows_dot_zero dot_S16x512_S2048x512_S16x2048_1_1_0_0_n_n none rfl rfl dA_l0 dA_l1 dA_r0 dA_r1
    x1 (k0_pay6 x0) r k).trans ?_
  exact Finset.sum_congr rfl fun d _ => by rw [pay6_apply]

/-- The new shift: the old one against the chunk's largest score. -/
theorem pay8_apply (v9 : Vec Ideal S16x1 .f32) (r : Fin 16) :
    k0_pay8 x0 x1 v9 (ix2 r (0 : Fin 1))
      = max (v9 (ix2 r (0 : Fin 1)))
          ((Finset.univ : Finset (Fin 2048)).fold max (Ideal.ofBits .f32 0xFF800000#32) (fun k => k0_pay7 x0 x1 (ix2 r k))) := by
  show max (v9 (ix2 r (0 : Fin 1)))
      (shapeCast S16x1 (multiReduction .maximumf [1] S16 (k0_pay7 x0 x1) 0xFF800000#32 reduces_S16x2048_S16 (.inl rfl) rfl)
        shapeCasts_S16_S16x1 (ix2 r (0 : Fin 1))) = _
  rw [shapeCast_a_a1_apply]
  exact congrArg (max _) (multiReduction_max_row (k0_pay7 x0 x1) 0xFF800000#32 reduces_S16x2048_S16 (.inl rfl) rfl r)

/-- The rescaling factor. -/
theorem pay9_apply (v9 : Vec Ideal S16x1 .f32) (r : Fin 16) :
    k0_pay9 x0 x1 v9 (ix2 r (0 : Fin 1)) = Ideal.exp (v9 (ix2 r (0 : Fin 1)) - k0_pay8 x0 x1 v9 (ix2 r (0 : Fin 1))) := rfl

/-- The chunk's weights. -/
theorem pay10_apply (v9 : Vec Ideal S16x1 .f32) (r : Fin 16) (k : Fin 2048) :
    k0_pay10 x0 x1 v9 (ix2 r k) = Ideal.exp (k0_pay7 x0 x1 (ix2 r k) - k0_pay8 x0 x1 v9 (ix2 r (0 : Fin 1))) := by
  show Ideal.exp (k0_pay7 x0 x1 (ix2 r k) - broadcastTo S16x2048 (k0_pay8 x0 x1 v9) broadcasts_S16x1_S16x2048 (ix2 r k)) = _
  rw [broadcastTo_a1_ab_apply]

/-- The total weights after the chunk. -/
theorem pay11_apply (v9 : Vec Ideal S16x1 .f32) (v16 : Vec Ideal S16x128 .f32) (r : Fin 16) (c : Fin 128) :
    k0_pay11 x0 x1 v9 v16 (ix2 r c)
      = v16 (ix2 r c) * k0_pay9 x0 x1 v9 (ix2 r (0 : Fin 1)) + ∑ k : Fin 2048, k0_pay10 x0 x1 v9 (ix2 r k) := by
  show shapeCast S16x128 (addf (mulf v16 (broadcastTo S16x128 (k0_pay9 x0 x1 v9) broadcasts_S16x1_S16x128))
      (broadcastTo S16x128 (shapeCast S16x1 (shapeCast S16x1
        (multiReduction .add [1] S16 (k0_pay10 x0 x1 v9) 0x00000000#32 reduces_S16x2048_S16 (.inl rfl) rfl)
        shapeCasts_S16_S16x1) shapeCasts_S16x1_S16x1) broadcasts_S16x1_S16x128)) shapeCasts_S16x128_S16x128 (ix2 r c) = _
  rw [shapeCast_self]
  show v16 (ix2 r c) * broadcastTo S16x128 (k0_pay9 x0 x1 v9) broadcasts_S16x1_S16x128 (ix2 r c)
      + broadcastTo S16x128 (shapeCast S16x1 (shapeCast S16x1
        (multiReduction .add [1] S16 (k0_pay10 x0 x1 v9) 0x00000000#32 reduces_S16x2048_S16 (.inl rfl) rfl)
        shapeCasts_S16_S16x1) shapeCasts_S16x1_S16x1) broadcasts_S16x1_S16x128 (ix2 r c) = _
  rw [broadcastTo_a1_ab_apply, broadcastTo_a1_ab_apply, shapeCast_self, shapeCast_a_a1_apply]
  exact congrArg (_ + ·) (multiReduction_add_row (k0_pay10 x0 x1 v9) 0x00000000#32 reduces_S16x2048_S16 (.inl rfl) rfl r)

/-- The weighted sums after the chunk. -/
theorem pay12_apply (v9 : Vec Ideal S16x1 .f32) (v28 : Vec Ideal S16x512 .f32) (r : Fin 16) (d : Fin 512) :
    k0_pay12 x0 x1 v9 v28 (ix2 r d)
      = v28 (ix2 r d) * k0_pay9 x0 x1 v9 (ix2 r (0 : Fin 1))
        + ∑ k : Fin 2048, k0_pay10 x0 x1 v9 (ix2 r k) * x0 (ix3 (0 : Fin 1) k d) := by
  show shapeCast S16x512 (addf (mulf v28 (broadcastTo S16x512 (k0_pay9 x0 x1 v9) broadcasts_S16x1_S16x512))
      (matmul dot_S16x2048_S2048x512_S16x512_1_0_0_1_n_n none (k0_pay10 x0 x1 v9) (k0_pay6 x0)
        (constant S16x512 .f32 0x00000000#32))) shapeCasts_S16x512_S16x512 (ix2 r d) = _
  rw [shapeCast_self]
  show v28 (ix2 r d) * broadcastTo S16x512 (k0_pay9 x0 x1 v9) broadcasts_S16x1_S16x512 (ix2 r d)
      + FloatOps.matmul dot_S16x2048_S2048x512_S16x512_1_0_0_1_n_n none (k0_pay10 x0 x1 v9) (k0_pay6 x0)
        (constant (F := Ideal) S16x512 .f32 0x00000000#32) (ix2 r d) = _
  rw [broadcastTo_a1_ab_apply,
    mat_dot_zero dot_S16x2048_S2048x512_S16x512_1_0_0_1_n_n none rfl rfl dB_l0 dB_l1 dB_r0 dB_r1]
  exact congrArg _ (Finset.sum_congr rfl fun k _ => by rw [pay6_apply])

/-- The shift stored to every column. -/
theorem pay1_apply (v10 : FVec Ideal S16x1 .f32) (r : Fin 16) (c : Fin 128) :
    k0_pay1 v10 (ix2 r c) = v10 (ix2 r (0 : Fin 1)) := by
  show shapeCast S16x128 (broadcastTo S16x128 (shapeCast S16x1 v10 shapeCasts_S16x1_S16x1) broadcasts_S16x1_S16x128)
      shapeCasts_S16x128_S16x128 (ix2 r c) = _
  rw [shapeCast_self, broadcastTo_a1_ab_apply, shapeCast_self]

/-- The output block: the weighted sums over the total weights. -/
theorem pay2_apply (v43 : Vec Ideal S16x512 .f32) (v44 : Vec Ideal S16x1 .f32) (u : Fin 1) (r : Fin 16) (d : Fin 512) :
    k0_pay2 v43 v44 (ix3 u r d) = Ideal.div (v43 (ix2 r d)) (v44 (ix2 r (0 : Fin 1))) := by
  show shapeCast S1x16x512 (divf (F := Ideal) (φ := .f32) v43 (broadcastTo S16x512 (α := EReal) v44 broadcasts_S16x1_S16x512))
      shapeCasts_S16x512_S1x16x512 (ix3 u r d) = _
  rw [shapeCast_ab_1ab_apply]
  show Ideal.div (v43 (ix2 r d)) (broadcastTo S16x512 (α := EReal) v44 broadcasts_S16x1_S16x512 (ix2 r d)) = _
  rw [broadcastTo_a1_ab_apply]

/-- The reset shift. -/
theorem pay3_apply (i : S16x128.Idx) : k0_pay3 (F := Ideal) i = Ideal.ofBits .f32 0xF149F2CA#32 := by
  show shapeCast S16x128 (broadcast S16x128 (Scalar.ofBits (F := Ideal) .f32 0xF149F2CA#32)) shapeCasts_S16x128_S16x128 i = _
  rw [shapeCast_self]; rfl
/-- The reset total weights. -/
theorem pay4_apply (i : S16x128.Idx) : k0_pay4 (F := Ideal) i = ((0 : ℝ) : EReal) := by
  show shapeCast S16x128 (broadcast S16x128 (Scalar.ofBits (F := Ideal) .f32 0x00000000#32)) shapeCasts_S16x128_S16x128 i = _
  rw [shapeCast_self]
  show Ideal.ofBits .f32 0x00000000#32 = _
  rw [Ideal.ofBits_zero_f32]; rfl
/-- The reset weighted sums. -/
theorem pay5_apply (i : S16x512.Idx) : k0_pay5 (F := Ideal) i = ((0 : ℝ) : EReal) := by
  show shapeCast S16x512 (broadcast S16x512 (Scalar.ofBits (F := Ideal) .f32 0x00000000#32)) shapeCasts_S16x512_S16x512 i = _
  rw [shapeCast_self]
  show Ideal.ofBits .f32 0x00000000#32 = _
  rw [Ideal.ofBits_zero_f32]; rfl

end apply

/-! ## One chunk at real inputs -/

/-- The score of seed row `r` against chunk row `k`, over the reals. -/
def score (Sd : Fin 16 → Fin 512 → ℝ) (X0 : Fin 2048 → Fin 512 → ℝ) (r : Fin 16) (k : Fin 2048) : ℝ :=
  ∑ d : Fin 512, Sd r d * X0 k d

/-- One chunk at real inputs: there is a real new shift per seed row, stored to every column; the total weights and
    the weighted sums are the old ones times `e^{μ − μ'}` plus the chunk's weights `e^{score − μ'}` (times the chunk's
    rows, for the weighted sums). -/
theorem step_real (x0 : Vec Ideal S1x2048x512 .f32) (x1 : Vec Ideal S16x512 .f32) (acc : Vec Ideal S16x512 .f32)
    (mm ll : Vec Ideal S16x128 .f32) (X0 : Fin 2048 → Fin 512 → ℝ) (Sd : Fin 16 → Fin 512 → ℝ) (μ L : Fin 16 → ℝ)
    (A : Fin 16 → Fin 512 → ℝ)
    (hx0 : ∀ k d, x0 (ix3 (0 : Fin 1) k d) = (X0 k d : EReal))
    (hx1 : ∀ r d, x1 (ix2 r d) = (Sd r d : EReal))
    (hm : ∀ r c, mm (ix2 r c) = (μ r : EReal))
    (hl : ∀ r c, ll (ix2 r c) = (L r : EReal))
    (ha : ∀ r d, acc (ix2 r d) = (A r d : EReal)) :
    ∃ μ' : Fin 16 → ℝ,
      (∀ r c, stepM x0 x1 mm (ix2 r c) = (μ' r : EReal)) ∧
      (∀ r c, stepL x0 x1 mm ll (ix2 r c)
        = ((L r * Real.exp (μ r - μ' r) + ∑ k, Real.exp (score Sd X0 r k - μ' r) : ℝ) : EReal)) ∧
      (∀ r d, stepAcc x0 x1 acc mm (ix2 r d)
        = ((A r d * Real.exp (μ r - μ' r) + ∑ k, Real.exp (score Sd X0 r k - μ' r) * X0 k d : ℝ) : EReal)) := by
  have hs : ∀ r k, k0_pay7 x0 x1 (ix2 r k) = (score Sd X0 r k : EReal) := fun r k => by
    rw [pay7_apply, score, coe_sum]
    exact Finset.sum_congr rfl fun d _ => by rw [hx1, hx0, EReal.coe_mul]
  have hc : ∀ r, col0 mm (ix2 r (0 : Fin 1)) = (μ r : EReal) := fun r => by rw [col0_apply, hm]
  have h8 : ∀ r, ∃ v : ℝ, k0_pay8 x0 x1 (col0 mm) (ix2 r (0 : Fin 1)) = (v : EReal) := fun r => by
    rw [pay8_apply, hc]
    refine max_real _ _ ?_
    simp only [hs]
    exact fold_max_lt_top _ _ (by rw [neg_inf_pattern]; exact bot_lt_top) _
  choose μ' hμ' using h8
  have h9 : ∀ r, k0_pay9 x0 x1 (col0 mm) (ix2 r (0 : Fin 1)) = (Real.exp (μ r - μ' r) : EReal) := fun r => by
    rw [pay9_apply, hc, hμ', ← EReal.coe_sub, exp_coe]
  have h10 : ∀ r k, k0_pay10 x0 x1 (col0 mm) (ix2 r k) = (Real.exp (score Sd X0 r k - μ' r) : EReal) := fun r k => by
    rw [pay10_apply, hs, hμ', ← EReal.coe_sub, exp_coe]
  refine ⟨μ', fun r c => ?_, fun r c => ?_, fun r d => ?_⟩
  · show k0_pay1 (k0_pay8 x0 x1 (col0 mm)) (ix2 r c) = _
    rw [pay1_apply, hμ']
  · show k0_pay11 x0 x1 (col0 mm) ll (ix2 r c) = _
    rw [pay11_apply, hl, h9, EReal.coe_add, EReal.coe_mul, coe_sum]
    exact congrArg _ (Finset.sum_congr rfl fun k _ => h10 r k)
  · show k0_pay12 x0 x1 (col0 mm) acc (ix2 r d) = _
    rw [pay12_apply, ha, h9, EReal.coe_add, EReal.coe_mul, coe_sum]
    exact congrArg _ (Finset.sum_congr rfl fun k _ => by rw [h10, hx0, EReal.coe_mul])

/-- The output block at an entry: the new weighted sum over the new total weight. -/
theorem outQ_apply (x0 : Vec Ideal S1x2048x512 .f32) (x1 : Vec Ideal S16x512 .f32) (acc : Vec Ideal S16x512 .f32)
    (mm ll : Vec Ideal S16x128 .f32) (u : Fin 1) (r : Fin 16) (d : Fin 512) :
    outQ x0 x1 acc mm ll (ix3 u r d)
      = Ideal.div (stepAcc x0 x1 acc mm (ix2 r d)) (stepL x0 x1 mm ll (ix2 r (0 : Fin 128))) := by
  show k0_pay2 (stepAcc x0 x1 acc mm) (col0 (stepL x0 x1 mm ll)) (ix3 u r d) = _
  rw [pay2_apply, col0_apply]

end Cert.KernelIdeal.Step

end
-- ==== Proof.LibSoftmax.lean ====
/-
  Softmax pooling over the reals.

  For scores `S s` and values `X s` over a finite index set, the pooled value is
  `(Σ_s e^{S s} · X s) / (Σ_s e^{S s})`.  Two facts are proved here.

  • The pooled value does not depend on a common shift of the scores: for every real `a`,
    `(Σ_s e^{S s − a} · X s) / (Σ_s e^{S s − a})` is the same number, and it is also the sum of the values weighted
    by the normalised weights `e^{S s − b} / Σ_t e^{S t − b}` for any other shift `b` (`pool_eq`).
  • Sums of shifted exponentials taken chunk by chunk can change their shift on the way: if a prefix of chunks has
    been summed with shift `μ`, multiplying by `e^{μ − μ'}` and adding the next chunk summed with shift `μ'` gives
    the longer prefix summed with shift `μ'` (`prefix_step`, `prefix_step_one`).

  Last, a sum over `m·n` positions is the sum over `m` chunks of `n` positions each (`sum_chunks`).
-/
import Mathlib

open scoped BigOperators

namespace Cert.Pool

variable {ι : Type*} [Fintype ι]

/-- A common shift of the scores cancels between numerator and denominator. -/
theorem pool_shift (S X : ι → ℝ) (a : ℝ) :
    (∑ s, Real.exp (S s - a) * X s) / (∑ s, Real.exp (S s - a))
      = (∑ s, Real.exp (S s) * X s) / (∑ s, Real.exp (S s)) := by
  have h : ∀ s, Real.exp (S s - a) = Real.exp (-a) * Real.exp (S s) := fun s => by
    rw [← Real.exp_add]; congr 1; ring
  simp only [h, mul_assoc, ← Finset.mul_sum]
  exact mul_div_mul_left _ _ (Real.exp_ne_zero _)

/-- Weighting each value by its normalised weight is dividing the weighted sum by the total weight. -/
theorem weights_sum (W X : ι → ℝ) :
    ∑ s, W s / (∑ t, W t) * X s = (∑ s, W s * X s) / (∑ t, W t) := by
  rw [Finset.sum_div]
  exact Finset.sum_congr rfl fun s _ => div_mul_eq_mul_div _ _ _

/-- The pooled value computed with shift `a` as one quotient is the pooled value computed with shift `b` as a sum of
    normalised weights times values. -/
theorem pool_eq (S X : ι → ℝ) (a b : ℝ) :
    (∑ s, Real.exp (S s - a) * X s) / (∑ s, Real.exp (S s - a))
      = ∑ s, Real.exp (S s - b) / (∑ t, Real.exp (S t - b)) * X s := by
  rw [weights_sum (fun s => Real.exp (S s - b)) X, pool_shift S X a, pool_shift S X b]

/-- Extending a chunk-prefix of weighted shifted exponentials by one chunk while moving the shift from `μ` to `μ'`. -/
theorem prefix_step {K : ℕ} (σ w : ℕ → Fin K → ℝ) (n : ℕ) (μ μ' : ℝ) :
    (∑ j ∈ Finset.range n, ∑ k, Real.exp (σ j k - μ) * w j k) * Real.exp (μ - μ')
        + ∑ k, Real.exp (σ n k - μ') * w n k
      = ∑ j ∈ Finset.range (n + 1), ∑ k, Real.exp (σ j k - μ') * w j k := by
  rw [Finset.sum_range_succ, Finset.sum_mul]
  congr 1
  refine Finset.sum_congr rfl fun j _ => ?_
  rw [Finset.sum_mul]
  refine Finset.sum_congr rfl fun k _ => ?_
  rw [mul_right_comm, ← Real.exp_add]
  congr 2
  ring

/-- The same for the plain sums of shifted exponentials. -/
theorem prefix_step_one {K : ℕ} (σ : ℕ → Fin K → ℝ) (n : ℕ) (μ μ' : ℝ) :
    (∑ j ∈ Finset.range n, ∑ k, Real.exp (σ j k - μ)) * Real.exp (μ - μ')
        + ∑ k, Real.exp (σ n k - μ')
      = ∑ j ∈ Finset.range (n + 1), ∑ k, Real.exp (σ j k - μ') := by
  have h := prefix_step σ (fun _ _ => 1) n μ μ'
  simpa only [mul_one] using h

/-- A sum over `m · n` positions, chunk by chunk: position `n·j + k` is position `k` of chunk `j`. -/
theorem sum_chunks {m n : ℕ} (hmn : 0 < m * n) (f : Fin (m * n) → ℝ) :
    ∑ s, f s = ∑ j ∈ Finset.range m, ∑ k : Fin n, f ⟨(n * j + k.val) % (m * n), Nat.mod_lt _ hmn⟩ := by
  rw [Finset.sum_range fun j => ∑ k : Fin n, f ⟨(n * j + k.val) % (m * n), Nat.mod_lt _ hmn⟩,
    ← Equiv.sum_comp finProdFinEquiv f, Fintype.sum_prod_type]
  refine Finset.sum_congr rfl fun j _ => Finset.sum_congr rfl fun k _ => congrArg f (Fin.ext ?_)
  show k.val + n * j.val = (n * j.val + k.val) % (m * n)
  have hj := j.isLt
  have hk := k.isLt
  have : n * j.val + k.val < m * n := by nlinarith
  rw [Nat.mod_eq_of_lt this]
  omega

end Cert.Pool
-- ==== Proof.Prefix.lean ====
/-
  The carried state of the pooling kernel, in closed form.

  Fix real inputs `X` (32 batches × 8192 positions × 512 features) and `Sd` (16 seed rows × 512 features).  After
  `j` chunks of batch `b` the three carried arrays are, for some real shift `μ r` per seed row `r`:

      m[r, ·]  = μ r,
      l[r, ·]  = Σ over the first j chunks, Σ over their rows, of e^{score − μ r},
      acc[r,d] = the same sum with each term multiplied by the row's feature d.

  The predicate `St` says exactly this.  It holds of the reset values with no chunk summed (`St_init`), one step of
  the kernel carries it from `j` to `j + 1` chunks (`St_step`: the change of shift is absorbed by the rescaling), and
  after all four chunks the quotient `acc / l` is the softmax-pooled value of the batch, whatever the final shift is
  (`St_final`).
-/
import proofs.«152830_g27711128994522_feedfinal_1_5_alg».proof.Proof.Step
import proofs.«152830_g27711128994522_feedfinal_1_5_alg».proof.Proof.LibSoftmax

noncomputable section

open scoped BigOperators

namespace Cert.Pool

open Cert.KernelIdeal Cert.KernelIdeal.Gen Cert.KernelIdeal.Cases Cert.KernelIdeal.Step Idealize.ShloMosaic
  Idealize.ShloMosaic.ValueIdx

variable (X : S32x8192x512.Idx → ℝ) (Sd : S16x512.Idx → ℝ)

/-- Feature `d` of row `k` of chunk `j` of batch `b` (position `2048·j + k`). -/
def chunk (b j : ℕ) (k : Fin 2048) (d : Fin 512) : ℝ :=
  X (ix3 (⟨b % 32, Nat.mod_lt _ (by norm_num)⟩ : Fin 32)
    (⟨(2048 * j + k.val) % 8192, Nat.mod_lt _ (by norm_num)⟩ : Fin 8192) d)

/-- The seed rows by coordinates. -/
def seeds (r : Fin 16) (d : Fin 512) : ℝ := Sd (ix2 r d)

/-- The score of seed row `r` against row `k` of chunk `j` of batch `b`. -/
def sc (b j : ℕ) (r : Fin 16) (k : Fin 2048) : ℝ := score (seeds Sd) (chunk X b j) r k

/-- The carried arrays after `j` chunks of batch `b`. -/
def St (b j : ℕ) (acc : Vec Ideal S16x512 .f32) (mm ll : Vec Ideal S16x128 .f32) : Prop :=
  ∃ μ : Fin 16 → ℝ,
    (∀ r c, mm (ix2 r c) = (μ r : EReal)) ∧
    (∀ r c, ll (ix2 r c)
      = ((∑ j' ∈ Finset.range j, ∑ k, Real.exp (sc X Sd b j' r k - μ r) : ℝ) : EReal)) ∧
    (∀ r d, acc (ix2 r d)
      = ((∑ j' ∈ Finset.range j, ∑ k, Real.exp (sc X Sd b j' r k - μ r) * chunk X b j' k d : ℝ) : EReal))

/-- The reset values: no chunk summed, the shift a (large negative) real number. -/
theorem St_init (b : ℕ) : St X Sd b 0 (k0_pay5 (F := Ideal)) (k0_pay3 (F := Ideal)) (k0_pay4 (F := Ideal)) := by
  obtain ⟨c0, hc0⟩ := neg_big_real
  refine ⟨fun _ => c0, fun r c => ?_, fun r c => ?_, fun r d => ?_⟩
  · rw [pay3_apply, hc0]
  · rw [pay4_apply, Finset.sum_range_zero]
  · rw [pay5_apply, Finset.sum_range_zero]

/-- One chunk more. -/
theorem St_step (b j : ℕ) (x0 : Vec Ideal S1x2048x512 .f32) (x1 : Vec Ideal S16x512 .f32) (acc : Vec Ideal S16x512 .f32)
    (mm ll : Vec Ideal S16x128 .f32)
    (hx0 : ∀ k d, x0 (ix3 (0 : Fin 1) k d) = (chunk X b j k d : EReal))
    (hx1 : ∀ r d, x1 (ix2 r d) = (seeds Sd r d : EReal))
    (h : St X Sd b j acc mm ll) :
    St X Sd b (j + 1) (stepAcc x0 x1 acc mm) (stepM x0 x1 mm) (stepL x0 x1 mm ll) := by
  obtain ⟨μ, hm, hl, ha⟩ := h
  obtain ⟨μ', hm', hl', ha'⟩ := step_real x0 x1 acc mm ll (chunk X b j) (seeds Sd) μ
    (fun r => ∑ j' ∈ Finset.range j, ∑ k, Real.exp (sc X Sd b j' r k - μ r))
    (fun r d => ∑ j' ∈ Finset.range j, ∑ k, Real.exp (sc X Sd b j' r k - μ r) * chunk X b j' k d)
    hx0 hx1 hm hl ha
  refine ⟨μ', hm', fun r c => ?_, fun r d => ?_⟩
  · rw [hl']
    exact congrArg _ (prefix_step_one (fun j' k => sc X Sd b j' r k) j (μ r) (μ' r))
  · rw [ha']
    exact congrArg _ (prefix_step (fun j' k => sc X Sd b j' r k) (fun j' k => chunk X b j' k d) j (μ r) (μ' r))

/-- The softmax-pooled value of batch `b` for seed row `r`, feature `d`: the positions' features weighted by the
    exponentials of their scores, over the total weight. -/
def pooled (b : Fin 32) (r : Fin 16) (d : Fin 512) : ℝ :=
  (∑ s : Fin 8192, Real.exp (∑ e : Fin 512, Sd (ix2 r e) * X (ix3 b s e)) * X (ix3 b s d))
    / (∑ s : Fin 8192, Real.exp (∑ e : Fin 512, Sd (ix2 r e) * X (ix3 b s e)))

/-- The 8192 positions of a batch, chunk by chunk. -/
theorem sum_8192 (f : Fin 8192 → ℝ) :
    ∑ s, f s = ∑ j ∈ Finset.range 4, ∑ k : Fin 2048,
      f ⟨(2048 * j + k.val) % 8192, Nat.mod_lt _ (by norm_num)⟩ :=
  sum_chunks (m := 4) (n := 2048) (by norm_num) f

/-- A chunk's row, for a batch given as an element of `Fin 32`. -/
theorem chunk_eq (b : Fin 32) (j : ℕ) (k : Fin 2048) (d : Fin 512) :
    chunk X b.val j k d = X (ix3 b (⟨(2048 * j + k.val) % 8192, Nat.mod_lt _ (by norm_num)⟩ : Fin 8192) d) := by
  have hb : (⟨b.val % 32, Nat.mod_lt _ (by norm_num)⟩ : Fin 32) = b := Fin.ext (Nat.mod_eq_of_lt b.isLt)
  unfold chunk
  rw [hb]

/-- After the four chunks of batch `b` the quotient of the weighted sums by the total weights is the pooled value. -/
theorem St_final (b : Fin 32) (acc : Vec Ideal S16x512 .f32) (mm ll : Vec Ideal S16x128 .f32)
    (h : St X Sd b.val 4 acc mm ll) (r : Fin 16) (d : Fin 512) :
    Ideal.div (acc (ix2 r d)) (ll (ix2 r (0 : Fin 128))) = (pooled X Sd b r d : EReal) := by
  obtain ⟨μ, hm, hl, ha⟩ := h
  have hpos : 0 < ∑ j' ∈ Finset.range 4, ∑ k : Fin 2048, Real.exp (sc X Sd b.val j' r k - μ r) :=
    Finset.sum_pos (fun j _ => Finset.sum_pos (fun k _ => Real.exp_pos _) ⟨⟨0, by norm_num⟩, Finset.mem_univ _⟩)
      ⟨0, Finset.mem_range.mpr (by norm_num)⟩
  rw [ha, hl, div_coe_coe _ _ (ne_of_gt hpos)]
  refine congrArg _ ?_
  have e1 : ∑ j' ∈ Finset.range 4, ∑ k : Fin 2048, Real.exp (sc X Sd b.val j' r k - μ r) * chunk X b.val j' k d
      = ∑ s : Fin 8192, Real.exp ((∑ e : Fin 512, Sd (ix2 r e) * X (ix3 b s e)) - μ r) * X (ix3 b s d) := by
    rw [sum_8192 fun s => Real.exp ((∑ e : Fin 512, Sd (ix2 r e) * X (ix3 b s e)) - μ r) * X (ix3 b s d)]
    refine Finset.sum_congr rfl fun j _ => Finset.sum_congr rfl fun k _ => ?_
    simp only [sc, score, seeds, chunk_eq]
  have e2 : ∑ j' ∈ Finset.range 4, ∑ k : Fin 2048, Real.exp (sc X Sd b.val j' r k - μ r)
      = ∑ s : Fin 8192, Real.exp ((∑ e : Fin 512, Sd (ix2 r e) * X (ix3 b s e)) - μ r) := by
    rw [sum_8192 fun s => Real.exp ((∑ e : Fin 512, Sd (ix2 r e) * X (ix3 b s e)) - μ r)]
    refine Finset.sum_congr rfl fun j _ => Finset.sum_congr rfl fun k _ => ?_
    simp only [sc, score, seeds, chunk_eq]
  rw [e1, e2]
  exact pool_shift (fun s => ∑ e : Fin 512, Sd (ix2 r e) * X (ix3 b s e)) (fun s => X (ix3 b s d)) (μ r)

end Cert.Pool

end
-- ==== Proof.Invariant.lean ====
/-
  The kernel's carried arrays after every grid point, and the block it stores at the last chunk of a batch.

  Grid point `t` is chunk `t mod 4` of batch `t div 4`.  The block of `x` it reads holds positions
  `2048·(t mod 4) … 2048·(t mod 4) + 2047` of batch `t div 4`; the block of the seeds is the whole seed array.  By
  induction on the point, after point `t` the three carried arrays are in the closed form of `Cert.Pool.St` with
  `t mod 4 + 1` chunks of batch `t div 4` summed: a first chunk starts from the reset values, every other chunk
  from what the point before left.  At a last chunk the stored block is therefore the pooled value of the batch.
-/
import proofs.«152830_g27711128994522_feedfinal_1_5_alg».proof.Proof.Prefix
import proofs.«152830_g27711128994522_feedfinal_1_5_alg».proof.Proof.Gen.KernelIdeal.Value
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Cases Cert.KernelIdeal.Step Cert.Pool

/-- Where the block of `x` sits at each point: batch `t div 4`, chunk `t mod 4`, all features. -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, win0_0.index t (0 : Fin 3) = t.val / 4 ∧ win0_0.index t (1 : Fin 3) = t.val % 4
    ∧ win0_0.index t (2 : Fin 3) = 0)

/-- The block of the seeds is the whole array at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

variable (m : (ℓ : Loc nD τ sig) → Buf (Elt Ideal) ℓ) (c : Dev nD)
variable (X : S32x8192x512.Idx → ℝ) (Sd : S16x512.Idx → ℝ)
variable (hX : m ((c : Thread nD τ).loc main_arg0) = fun i => (X i : EReal))
variable (hS : m ((c : Thread nD τ).loc main_arg1) = fun i => (Sd i : EReal))

include hX in
/-- The block of `x` at point `t`, by coordinates. -/
theorem iblk0_apply (t : Fin cfg0.N) (k : Fin 2048) (d : Fin 512) :
    (iblk m c 0 t : Vec Ideal S1x2048x512 .f32) (ix3 (0 : Fin 1) k d) = (chunk X (t.val / 4) (t.val % 4) k d : EReal) := by
  obtain ⟨h0, h1, h2⟩ := idx0 t
  have hN : t.val < 128 := lt_of_lt_of_eq t.isLt N_0
  have hk := k.isLt
  unfold iblk
  rw [View.read_apply]
  show V m c main_arg0 _ = _
  unfold V
  rw [hX]
  unfold chunk
  refine congrArg (fun i => ((X i : ℝ) : EReal)) (funext fun a => Fin.ext ?_)
  match a with
  | ⟨0, _⟩ => show win0_0.index t 0 * 1 + 1 * 0 = t.val / 4 % 32; rw [h0]; omega
  | ⟨1, _⟩ => show win0_0.index t 1 * 2048 + 1 * k.val = (2048 * (t.val % 4) + k.val) % 8192; rw [h1]; omega
  | ⟨2, _⟩ => show win0_0.index t 2 * 512 + 1 * d.val = d.val; rw [h2]; omega

include hS in
/-- The block of the seeds at point `t`, by coordinates. -/
theorem iblk1_apply (t : Fin cfg0.N) (r : Fin 16) (d : Fin 512) :
    (iblk m c 1 t : Vec Ideal S16x512 .f32) (ix2 r d) = (seeds Sd r d : EReal) := by
  obtain ⟨h0, h1⟩ := idx1 t
  unfold iblk
  rw [View.read_apply]
  show V m c main_arg1 _ = _
  unfold V
  rw [hS]
  unfold seeds
  refine congrArg (fun i => ((Sd i : ℝ) : EReal)) (funext fun a => Fin.ext ?_)
  match a with
  | ⟨0, _⟩ => show win0_1.index t 0 * 16 + 1 * r.val = r.val; rw [h0]; omega
  | ⟨1, _⟩ => show win0_1.index t 1 * 512 + 1 * d.val = d.val; rw [h1]; omega

include hX hS in
/-- A first chunk: the closed form with one chunk summed. -/
theorem inv_A (t : Fin cfg0.N) (h0 : t.val % 4 = 0) :
    St X Sd (t.val / 4) (t.val % 4 + 1) (outsAt0 m c t.val t.isLt).2.1 (outsAt0 m c t.val t.isLt).2.2.1
      (outsAt0 m c t.val t.isLt).2.2.2 := by
  have h1 : ¬t.val % 4 = 3 := by omega
  have key := St_step X Sd (t.val / 4) (t.val % 4) (iblk m c 0 t) (iblk m c 1 t) (k0_pay5 (F := Ideal)) (k0_pay3 (F := Ideal))
    (k0_pay4 (F := Ideal)) (iblk0_apply m c X hX t) (iblk1_apply m c Sd hS t) (by rw [h0]; exact St_init X Sd (t.val / 4))
  rw [outsAt0_A m c t h0 h1]
  dsimp only
  rw [accA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    mA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    lA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h))]
  exact key

include hX hS in
/-- A later chunk: the closed form with one chunk more than the point before. -/
theorem inv_BC (t : Fin cfg0.N) (h0 : ¬t.val % 4 = 0)
    (ih : St X Sd ((t.val - 1) / 4) ((t.val - 1) % 4 + 1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) :
    St X Sd (t.val / 4) (t.val % 4 + 1) (outsAt0 m c t.val t.isLt).2.1 (outsAt0 m c t.val t.isLt).2.2.1
      (outsAt0 m c t.val t.isLt).2.2.2 := by
  have e1 : (t.val - 1) / 4 = t.val / 4 := by omega
  have e2 : (t.val - 1) % 4 + 1 = t.val % 4 := by omega
  rw [e1, e2] at ih
  have key := St_step X Sd (t.val / 4) (t.val % 4) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2 (iblk0_apply m c X hX t) (iblk1_apply m c Sd hS t) ih
  by_cases h1 : t.val % 4 = 3
  · rw [outsAt0_C m c t h0 h1]
    dsimp only
    rw [accC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      mC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      lC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact key
  · rw [outsAt0_B m c t h0 h1]
    dsimp only
    rw [accB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      mB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      lB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact key

include hX hS in
/-- After every point the carried arrays are in closed form. -/
theorem inv : ∀ (n : ℕ) (hn : n < cfg0.N),
    St X Sd (n / 4) (n % 4 + 1) (outsAt0 m c n hn).2.1 (outsAt0 m c n hn).2.2.1 (outsAt0 m c n hn).2.2.2
  | 0, hn => inv_A m c X Sd hX hS ⟨0, hn⟩ rfl
  | n + 1, hn => by
    by_cases h0 : (n + 1) % 4 = 0
    · exact inv_A m c X Sd hX hS ⟨n + 1, hn⟩ h0
    · exact inv_BC m c X Sd hX hS ⟨n + 1, hn⟩ h0 (inv n (Nat.lt_of_succ_lt hn))

include hX hS in
/-- The block stored at the last chunk of batch `b`: the pooled values of the batch. -/
theorem out_last (t : Fin cfg0.N) (h3 : t.val % 4 = 3) (b : Fin 32) (hb : b.val = t.val / 4) (j : S1x16x512.Idx) :
    (outsAt0 m c t.val t.isLt).1 j = (pooled X Sd b (j 1) (j 2) : EReal) := by
  obtain ⟨u, r, d, rfl⟩ : ∃ (u : Fin 1) (r : Fin 16) (d : Fin 512), j = ix3 u r d := ⟨j 0, j 1, j 2, eq_ix3 j⟩
  have h0 : ¬t.val % 4 = 0 := by omega
  have hN : t.val < 128 := lt_of_lt_of_eq t.isLt N_0
  have ih := inv m c X Sd hX hS (t.val - 1) (Nat.lt_of_le_of_lt (Nat.sub_le _ _) t.isLt)
  have e1 : (t.val - 1) / 4 = b.val := by omega
  have e2 : (t.val - 1) % 4 + 1 = 3 := by omega
  rw [e1, e2] at ih
  have h34 : t.val % 4 = 3 := h3
  have key := St_step X Sd b.val 3 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2 (by rw [hb, ← h34]; exact iblk0_apply m c X hX t) (iblk1_apply m c Sd hS t) ih
  rw [outsAt0_C m c t h0 h3]
  dsimp only
  rw [outC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (fun h => h0 ((hcond0_0 t).mp h)) ((hcond0_1 t).mpr h3) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    outQ_apply]
  exact St_final X Sd b _ _ _ key r d

end Cert.KernelIdeal.Inv

end
-- ==== Proof.Blocks.lean ====
/-
  From the stored blocks to the result array.

  The output window's block at point `t` is rows `t div 4` of the result (one batch: 16 seed rows × 512 features);
  it is written back at the last chunk of each batch only.  The block written back for batch `b` holds the pooled
  values of batch `b`, and the 32 written blocks tile the result array, so the result array ends holding the pooled
  value at every entry.
-/
import proofs.«152830_g27711128994522_feedfinal_1_5_alg».proof.Proof.Invariant

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Inv Cert.Pool

/-- Where the output block sits at each point: batch `t div 4`, all seed rows, all features. -/
theorem idx2 : ∀ t : Fin cfg0.N, win0_2.index t (0 : Fin 3) = t.val / 4 ∧ win0_2.index t (1 : Fin 3) = 0
    ∧ win0_2.index t (2 : Fin 3) = 0 :=
  (by decide +kernel : ∀ t : Fin grid0.N, win0_2.index t (0 : Fin 3) = t.val / 4 ∧ win0_2.index t (1 : Fin 3) = 0
    ∧ win0_2.index t (2 : Fin 3) = 0)

variable (m : (ℓ : Loc nD τ sig) → Buf (Elt Ideal) ℓ) (c : Dev nD)
variable (X : S32x8192x512.Idx → ℝ) (Sd : S16x512.Idx → ℝ)
variable (hX : m ((c : Thread nD τ).loc main_arg0) = fun i => (X i : EReal))
variable (hS : m ((c : Thread nD τ).loc main_arg1) = fun i => (Sd i : EReal))

/-- The result array: the pooled value at every (batch, seed row, feature). -/
def result : Buf (Elt Ideal) ((c : Thread nD τ).loc main_v0) :=
  fun i => ((pooled X Sd (i 0) (i 1) (i 2) : ℝ) : EReal)

include hX hS in
/-- What a last chunk writes back is its batch's block of the result. -/
theorem flushed_eq (t : Fin cfg0.N) (hf : (cfg0.win 2).flush t = true) :
    (dats m 0 c).flushed 2 t = ((cfg0.win 2).blk t).view.read (Elt Ideal) (result c X Sd) := by
  have h3 : t.val % 4 = 3 := (flush0_2 t).mp hf
  have hN : t.val < 128 := lt_of_lt_of_eq t.isLt N_0
  obtain ⟨i0, i1, i2⟩ := idx2 t
  show (cfg0.win 2).cut (grid0.coords t) ((dats m 0 c).after 2 t) = _
  rw [after0_2]
  funext j
  refine (out_last m c X Sd hX hS t h3 ⟨t.val / 4, by omega⟩ rfl j).trans ?_
  rw [View.read_apply]
  show _ = ((pooled X Sd (((cfg0.win 2).blk t).view.emb j 0) (((cfg0.win 2).blk t).view.emb j 1)
    (((cfg0.win 2).blk t).view.emb j 2) : ℝ) : EReal)
  have e0 : ((cfg0.win 2).blk t).view.emb j 0 = (⟨t.val / 4, by omega⟩ : Fin 32) := Fin.ext (by
    show win0_2.index t 0 * 1 + 1 * (j 0).val = t.val / 4
    have hj : (j 0).val < 1 := (j 0).isLt
    rw [i0]; omega)
  have e1 : ((cfg0.win 2).blk t).view.emb j 1 = j 1 := Fin.ext (by
    show win0_2.index t 1 * 16 + 1 * (j 1).val = (j 1).val
    rw [i1]; omega)
  have e2 : ((cfg0.win 2).blk t).view.emb j 2 = j 2 := Fin.ext (by
    show win0_2.index t 2 * 512 + 1 * (j 2).val = (j 2).val
    rw [i2]; omega)
  rw [e0, e1, e2]

/-- An entry of the result lies in point `t`'s block when each coordinate is in the block's range. -/
theorem mem_blk (t : Fin cfg0.N) (i : S32x16x512.Idx) :
    i ∈ ((cfg0.win 2).blk t).view.set ↔ ∀ a : Fin 3, win0_2.index t a * S1x16x512.size a ≤ (i a).val
      ∧ (i a).val < win0_2.index t a * S1x16x512.size a + S1x16x512.size a := by
  show i ∈ ((View.whole main_v0).slice (win0_2.rect t)).set ↔ _
  rw [View.set_slice_whole, Rect.mem_set_unit]
  exact Iff.rfl

include hX hS in
/-- The result array after the run. -/
theorem final : (dats m 0 c).arrAt 2 cfg0.N = result c X Sd :=
  (dats m 0 c).arrAt_eq_of_cover 2 (result c X Sd) (flushed_eq m c X Sd hX hS) fun i => by
    have hi0 : (i 0).val < 32 := (i 0).isLt
    have hi1 : (i 1).val < 16 := (i 1).isLt
    have hi2 : (i 2).val < 512 := (i 2).isLt
    have hlt : 4 * (i 0).val + 3 < cfg0.N := by show _ < grid0.N; rw [N_0]; omega
    refine ⟨⟨4 * (i 0).val + 3, hlt⟩, (flush0_2 _).mpr (by show (4 * (i 0).val + 3) % 4 = 3; omega), ?_⟩
    obtain ⟨i0, i1, i2⟩ := idx2 ⟨4 * (i 0).val + 3, hlt⟩
    have i0' : win0_2.index ⟨4 * (i 0).val + 3, hlt⟩ 0 = (i 0).val := by
      rw [i0]; show (4 * (i 0).val + 3) / 4 = _; omega
    rw [mem_blk]
    intro a
    match a with
    | ⟨0, _⟩ =>
      show win0_2.index ⟨4 * (i 0).val + 3, hlt⟩ 0 * 1 ≤ (i 0).val ∧ (i 0).val < win0_2.index ⟨4 * (i 0).val + 3, hlt⟩ 0 * 1 + 1
      rw [i0']; omega
    | ⟨1, _⟩ =>
      show win0_2.index ⟨4 * (i 0).val + 3, hlt⟩ 1 * 16 ≤ (i 1).val ∧ (i 1).val < win0_2.index ⟨4 * (i 0).val + 3, hlt⟩ 1 * 16 + 16
      rw [i1]; omega
    | ⟨2, _⟩ =>
      show win0_2.index ⟨4 * (i 0).val + 3, hlt⟩ 2 * 512 ≤ (i 2).val ∧ (i 2).val < win0_2.index ⟨4 * (i 0).val + 3, hlt⟩ 2 * 512 + 512
      rw [i2]; omega

end Cert.KernelIdeal.Blocks

end
-- ==== Proof.Reference.lean ====
/-
  The reference at real inputs.

  The reference forms all scores `S b r s = Σ_e seeds[r,e] · x[b,s,e]`, subtracts from each row its maximum `M b r`
  (a real number, the row being nonempty and real), exponentiates, divides by the row's total and contracts the
  normalised weights against `x`.  Read stage by stage at real inputs this is

      Σ_s  e^{S b r s − M b r} / (Σ_t e^{S b r t − M b r}) · x[b,s,d],

  which is the softmax-pooled value: the common shift `M b r` cancels.
-/
import proofs.«152830_g27711128994522_feedfinal_1_5_alg».proof.Proof.Gen.ReferenceIdeal.Read
import proofs.«152830_g27711128994522_feedfinal_1_5_alg».proof.Proof.Prefix
import Idealize.ShloMosaic.PureOps.Reduce

noncomputable section

open scoped BigOperators

namespace Cert.Pool.Ref

open Cert.ReferenceIdeal Cert.ReferenceIdeal.Gen Cert.ReferenceIdeal.Read Idealize.ShloMosaic Idealize.ShloMosaic.ValueIdx Cert.Pool

variable (x0 : (⟨S32x8192x512, .f32⟩ : BufTy).Contents (Elt Ideal)) (x1 : (⟨S16x512, .f32⟩ : BufTy).Contents (Elt Ideal))
variable (X : S32x8192x512.Idx → ℝ) (Sd : S16x512.Idx → ℝ)

/-- The score of seed row `r` against position `s` of batch `b`. -/
def S (b : Fin 32) (r : Fin 16) (s : Fin 8192) : ℝ := ∑ e : Fin 512, Sd (ix2 r e) * X (ix3 b s e)

/-- Putting position `k` back on the reduced axis of a (batch, seed row) index. -/
theorem lift_row3 (h : S32x16x8192.Reduces [2] S32x16) (b : Fin 32) (r : Fin 16) (k : Fin 8192) :
    h.lift (ix2 b r) k = ix3 b r k := by
  funext ax
  match ax with
  | ⟨0, _⟩ => rfl
  | ⟨1, _⟩ => rfl
  | ⟨2, _⟩ => rfl

section stages

variable (hx0 : ∀ i, x0 i = (X i : EReal)) (hx1 : ∀ i, x1 i = (Sd i : EReal))
include hx0 hx1

/-- The transposed scores. -/
theorem v1_real (b : Fin 32) (r : Fin 16) (s : Fin 8192) :
    val_main_v1 (F := Ideal) x0 x1 (ix3 b r s) = (S X Sd b r s : EReal) := by
  rw [val_main_v1_apply, val_main_v0_apply, S, coe_sum]
  refine Finset.sum_congr rfl fun e _ => ?_
  have el : lidx_main_v0 (idx_main_v1 (ix3 b r s)) e = ix3 b s e :=
    funext fun a => Fin.ext (by match a with | ⟨0, _⟩ => rfl | ⟨1, _⟩ => rfl | ⟨2, _⟩ => rfl)
  have er : ridx_main_v0 (idx_main_v1 (ix3 b r s)) e = ix2 r e :=
    funext fun a => Fin.ext (by match a with | ⟨0, _⟩ => rfl | ⟨1, _⟩ => rfl)
  rw [el, er, hx0, hx1, EReal.coe_mul]
  exact mul_comm _ _

/-- Each row's maximum is a real number. -/
theorem max_rows : ∃ M : Fin 32 → Fin 16 → ℝ, ∀ b r, val_main_v4 (F := Ideal) x0 x1 (ix2 b r) = (M b r : EReal) := by
  have hred : S32x16x8192.Reduces [2] S32x16 := by decide
  have h : ∀ (b : Fin 32) (r : Fin 16), ∃ v : ℝ, val_main_v4 (F := Ideal) x0 x1 (ix2 b r) = (v : EReal) := fun b r => by
    have h3 : val_main_v3 (F := Ideal) (ix2 b r) = ⊥ := by
      rw [val_main_v3_apply, val_main_cst_0_apply]; exact neg_inf_pattern
    have e : val_main_v2 (F := Ideal) x0 x1 (ix2 b r)
        = (Finset.univ : Finset (Fin 8192)).fold max (⊥ : EReal) (fun k => ((S X Sd b r k : ℝ) : EReal)) := by
      refine (Host.reduce_eq_fold_single (FloatOps.maximumf (F := Ideal) (φ := .f32)) (val_main_v1 (F := Ideal) x0 x1)
        (val_main_cst (F := Ideal)) reducesTo_S32x16x8192_S32x16_d2 hred h_S_ (ix2 b r)).trans ?_
      have hi : val_main_cst (F := Ideal) (Shape.Idx.first h_S_) = ⊥ := neg_inf_pattern
      have hf : (val_main_v1 (F := Ideal) x0 x1 ∘ hred.lift (ix2 b r)) = fun k : Fin 8192 => ((S X Sd b r k : ℝ) : EReal) :=
        funext fun k => by
          show val_main_v1 (F := Ideal) x0 x1 (hred.lift (ix2 b r) k) = _
          exact (congrArg (val_main_v1 (F := Ideal) x0 x1) (lift_row3 hred b r k)).trans (v1_real x0 x1 X Sd hx0 hx1 b r k)
      rw [hi, hf]
      rfl
    obtain ⟨v, hv⟩ := fold_max_real (Finset.univ : Finset (Fin 8192)) ⟨⟨0, by norm_num⟩, Finset.mem_univ _⟩
      (fun k => S X Sd b r k)
    refine ⟨v, ?_⟩
    rw [val_main_v4_apply]
    show max (val_main_v3 (F := Ideal) (ix2 b r)) (val_main_v2 (F := Ideal) x0 x1 (ix2 b r)) = _
    rw [h3, e, hv]
    exact max_eq_right bot_le
  choose M hM using h
  exact ⟨M, hM⟩

variable (M : Fin 32 → Fin 16 → ℝ) (hM : ∀ b r, val_main_v4 (F := Ideal) x0 x1 (ix2 b r) = (M b r : EReal))
include hM

/-- The shifted exponentials. -/
theorem v8_real (b : Fin 32) (r : Fin 16) (s : Fin 8192) :
    val_main_v8 (F := Ideal) x0 x1 (ix3 b r s) = (Real.exp (S X Sd b r s - M b r) : EReal) := by
  rw [val_main_v8_apply, val_main_v7_apply, val_main_v6_apply, val_main_v5_apply]
  have ei : idx_main_v5 (idx_main_v6 (ix3 b r s)) = ix2 b r :=
    funext fun a => Fin.ext (by match a with | ⟨0, _⟩ => rfl | ⟨1, _⟩ => rfl)
  rw [ei, hM, v1_real x0 x1 X Sd hx0 hx1]
  show Ideal.exp ((S X Sd b r s : EReal) - (M b r : EReal)) = _
  rw [← EReal.coe_sub, exp_coe]

/-- The row totals, broadcast back along the row. -/
theorem v11_real (b : Fin 32) (r : Fin 16) (s : Fin 8192) :
    val_main_v11 (F := Ideal) x0 x1 (ix3 b r s) = ((∑ t : Fin 8192, Real.exp (S X Sd b r t - M b r) : ℝ) : EReal) := by
  rw [val_main_v11_apply, val_main_v10_apply]
  have ei : idx_main_v10 (idx_main_v11 (ix3 b r s)) = ix2 b r :=
    funext fun a => Fin.ext (by match a with | ⟨0, _⟩ => rfl | ⟨1, _⟩ => rfl)
  rw [ei, val_main_v9_apply]
  have h0 : val_main_cst_1 (F := Ideal) (Shape.Idx.first h_S_) = 0 := Ideal.ofBits_zero_f32
  rw [h0, zero_add, coe_sum]
  refine Finset.sum_congr rfl fun k _ => ?_
  have e9 : idx_main_v9 (ix2 b r) k = ix3 b r k :=
    funext fun a => Fin.ext (by match a with | ⟨0, _⟩ => rfl | ⟨1, _⟩ => rfl | ⟨2, _⟩ => rfl)
  rw [e9, v8_real x0 x1 X Sd hx0 hx1 M hM]

/-- The normalised weights. -/
theorem v12_real (b : Fin 32) (r : Fin 16) (s : Fin 8192) :
    val_main_v12 (F := Ideal) x0 x1 (ix3 b r s)
      = ((Real.exp (S X Sd b r s - M b r) / ∑ t : Fin 8192, Real.exp (S X Sd b r t - M b r) : ℝ) : EReal) := by
  have hpos : 0 < ∑ t : Fin 8192, Real.exp (S X Sd b r t - M b r) :=
    Finset.sum_pos (fun k _ => Real.exp_pos _) ⟨⟨0, by norm_num⟩, Finset.mem_univ _⟩
  rw [val_main_v12_apply]
  show Ideal.div (val_main_v8 (F := Ideal) x0 x1 (ix3 b r s)) (val_main_v11 (F := Ideal) x0 x1 (ix3 b r s)) = _
  rw [v8_real x0 x1 X Sd hx0 hx1 M hM, v11_real x0 x1 X Sd hx0 hx1 M hM, div_coe_coe _ _ (ne_of_gt hpos)]

/-- The result: the pooled value. -/
theorem v13_real (b : Fin 32) (r : Fin 16) (d : Fin 512) :
    val_main_v13 (F := Ideal) x0 x1 (ix3 b r d) = (pooled X Sd b r d : EReal) := by
  rw [val_main_v13_apply]
  have hterm : ∀ s : Fin 8192, val_main_v12 (F := Ideal) x0 x1 (lidx_main_v13 (ix3 b r d) s) * x0 (ridx_main_v13 (ix3 b r d) s)
      = ((Real.exp (S X Sd b r s - M b r) / (∑ t : Fin 8192, Real.exp (S X Sd b r t - M b r)) * X (ix3 b s d) : ℝ) : EReal) :=
    fun s => by
      have el : lidx_main_v13 (ix3 b r d) s = ix3 b r s :=
        funext fun a => Fin.ext (by match a with | ⟨0, _⟩ => rfl | ⟨1, _⟩ => rfl | ⟨2, _⟩ => rfl)
      have er : ridx_main_v13 (ix3 b r d) s = ix3 b s d :=
        funext fun a => Fin.ext (by match a with | ⟨0, _⟩ => rfl | ⟨1, _⟩ => rfl | ⟨2, _⟩ => rfl)
      rw [el, er, v12_real x0 x1 X Sd hx0 hx1 M hM, hx0, EReal.coe_mul]
  rw [Finset.sum_congr rfl fun s _ => hterm s, ← coe_sum]
  refine congrArg _ ?_
  rw [weights_sum (fun s => Real.exp (S X Sd b r s - M b r)) (fun s => X (ix3 b s d))]
  exact pool_shift (fun s => S X Sd b r s) (fun s => X (ix3 b s d)) (M b r)

end stages

/-- The reference's result at real inputs is the pooled value, entry by entry. -/
theorem result_real (hx0 : ∀ i, x0 i = (X i : EReal)) (hx1 : ∀ i, x1 i = (Sd i : EReal)) (i : S32x16x512.Idx) :
    val_main_v13 (F := Ideal) x0 x1 i = (pooled X Sd (i 0) (i 1) (i 2) : EReal) := by
  obtain ⟨M, hM⟩ := max_rows x0 x1 X Sd hx0 hx1
  rw [eq_ix3 i]
  exact v13_real x0 x1 X Sd hx0 hx1 M hM (i 0) (i 1) (i 2)

end Cert.Pool.Ref

end
-- ==== Proof.lean ====
/-
  Softmax pooling of a sequence against sixteen seed rows: the kernel and its reference compute the same array.

  For each batch `b` and seed row `r` the scores are `S s = Σ_e seeds[r,e] · x[b,s,e]` over the 8192 positions `s`,
  and the result is the pooled value

      out[b,r,d] = (Σ_s e^{S s} · x[b,s,d]) / (Σ_s e^{S s}).

  The reference subtracts the row maximum before exponentiating and normalises the weights before contracting them
  against `x`.  The kernel walks the sequence in four chunks of 2048 positions, carrying a running shift, the total
  weight and the weighted sums, rescaling the carried sums whenever the shift moves, and divides at the end.  Over the
  extended reals, at inputs that are real numbers, both are the pooled value: a common shift of the scores cancels
  between numerator and denominator, so neither the reference's maximum nor the kernel's running shift (nor the large
  negative constant it starts from) matters, only that they are real.  Finiteness of the inputs is what makes every
  score, shift and weight a real number; without it the cancellation fails.

  Modules: `LibSoftmax` (the real-number algebra), `LibRealValued` and `Finite` (extended reals that are real; the precondition
  read), `Cases`, `Step`, `Prefix`, `Invariant`, `Blocks` (the kernel: one chunk, the carried state in closed form,
  every grid point, the result array), `Reference` (the reference stage by stage).  The three frame claims are the
  generated frame runs; the idealization rewrote nothing.
-/
import proofs.«152830_g27711128994522_feedfinal_1_5_alg».proof.Defs
import proofs.«152830_g27711128994522_feedfinal_1_5_alg».proof.Proof.Gen.Kernel
import proofs.«152830_g27711128994522_feedfinal_1_5_alg».proof.Proof.Gen.Kernel.Skeleton
import proofs.«152830_g27711128994522_feedfinal_1_5_alg».proof.Proof.Gen.Kernel.Launch
import proofs.«152830_g27711128994522_feedfinal_1_5_alg».proof.Proof.Gen.Kernel.Points
import proofs.«152830_g27711128994522_feedfinal_1_5_alg».proof.Proof.Gen.Kernel.Frame
import proofs.«152830_g27711128994522_feedfinal_1_5_alg».proof.Proof.Gen.KernelIdeal
import proofs.«152830_g27711128994522_feedfinal_1_5_alg».proof.Proof.Gen.KernelIdeal.Skeleton
import proofs.«152830_g27711128994522_feedfinal_1_5_alg».proof.Proof.Gen.KernelIdeal.Launch
import proofs.«152830_g27711128994522_feedfinal_1_5_alg».proof.Proof.Gen.KernelIdeal.Points
import proofs.«152830_g27711128994522_feedfinal_1_5_alg».proof.Proof.Gen.KernelIdeal.Frame
import proofs.«152830_g27711128994522_feedfinal_1_5_alg».proof.Proof.Gen.KernelIdeal.Value
import proofs.«152830_g27711128994522_feedfinal_1_5_alg».proof.Proof.Gen.ReferenceIdeal
import proofs.«152830_g27711128994522_feedfinal_1_5_alg».proof.Proof.Gen.ReferenceIdeal.Run
import proofs.«152830_g27711128994522_feedfinal_1_5_alg».proof.Proof.Gen.ReferenceIdeal.Read
import proofs.«152830_g27711128994522_feedfinal_1_5_alg».proof.Proof.Gen.Pre_finite_inputs
import proofs.«152830_g27711128994522_feedfinal_1_5_alg».proof.Proof.Finite
import proofs.«152830_g27711128994522_feedfinal_1_5_alg».proof.Proof.Blocks
import proofs.«152830_g27711128994522_feedfinal_1_5_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At real inputs the kernel's result array and the reference's are both the pooled value at every entry. -/
theorem algebraic : Cert.algebraic_KernelIdeal_ReferenceIdeal := by
  intro m ρ m' ρ' hpre hagree
  have hreal := fun c => Cert.Pool.real_of_pre _ _ (hpre c)
  choose X hX using fun c => (hreal c).1
  choose Sd hS using fun c => (hreal c).2
  refine ⟨fun c => Cert.KernelIdeal.Blocks.result c (X c) (Sd c), ?_, ?_⟩
  · exact (θ_run Cert.KernelIdeal.defs _ _).mono
      (fun r h c => ⟨(h c).1.trans (Cert.KernelIdeal.Blocks.final m c (X c) (Sd c) (funext (hX c)) (funext (hS c))), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [(hagree c).1, (hagree c).2]
    refine (Cert.ReferenceIdeal.Read.val_main_v13_eq _ _).trans (funext fun i => ?_)
    exact Cert.Pool.Ref.result_real _ _ (X c) (Sd c) (hX c) (hS c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
